-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S256x2048 .f32
  ∧ IdealRules.named_const.Statement Cert.KernelIdeal.κ "inv_7" .f32 0x3E124925#32 ((1 / 7 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S1x2048 : Shape := ⟨2, ![1, 2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S2048x1, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x1, .f32⟩
  | .local _ .vmem, ⟨5, _⟩ => ⟨S256x1, .f32⟩
  | .local _ .vmem, ⟨6, _⟩ => ⟨S256x2048, .f32⟩
  | .local _ .vmem, ⟨7, _⟩ => ⟨S256x2048, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S256x1_S256x1_0_0 : ∀ a, (![0, 0] : Fin 2 → Nat) a + S256x1.size a ≤ S256x1.size a
  h_S256x1 : 0 < S256x1.numel
  shapeCasts_S2048x1_S1x2048 : S2048x1.ShapeCasts S1x2048
  shapeCasts_S2048_S1x2048 : S2048.ShapeCasts S1x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S8192x2048.size a
  hwx1_4 : ∀ i : grid1.Coords, EltTy.bits .f32 = 32 ∨ (Rect.block (s := S8192x2048) S256x2048.size (cc1_transform_4 i) (hinb1_4 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S8192 : Shape := ⟨1, ![8192]⟩
abbrev S8192x1 : Shape := ⟨2, ![8192, 1]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S1x2048, .f32⟩
  | .hbm, ⟨75, _⟩ => ⟨S8192x2048, .f32⟩
  | .hbm, ⟨76, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_cst_12 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048 : S_.BroadcastsInDim S2048 (![] : Fin 0 → Fin S2048.rank)
  bcast_S2048_S1x2048_1 : S2048.BroadcastsInDim S1x2048 (![1] : Fin 1 → Fin S1x2048.rank)
  reducesTo_S8192x2048_S8192_d1 : S8192x2048.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bcast_S1x2048_S8192x2048_0_1 : S1x2048.BroadcastsInDim S8192x2048 (![0, 1] : Fin 2 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Spec.lean ====
/-
  The layer this certificate is about, as plain functions on the extended reals.

  A row `a` of 2048 entries has mean `mean a = (∑ a) / 2048`, centred entries `cen a k = a k - mean a` and
  variance `var a = (∑ (cen a)²) / 2048`. The weight matrix is binarised row by row: entry `k` of row `w` becomes
  the sign of its centred value, and the row's scale is `beta w`, the mean of the absolute values. An activation row
  is normalised (`xln`), scaled so that its largest absolute entry `gama` (never below `ε`) lands on 7, and clipped
  to `[lo, hi]` (`xq`). An output entry is the product of a quantised activation row with a binarised weight row,
  rescaled by `beta · gama / 7`, plus a bias.

  Two arrangements of the same entry are stated. `out` normalises by a product with the reciprocal square root,
  takes the clip and the sign as they are and multiplies by the rational `1/7`. `outR` normalises by a quotient with
  the square root, writes the clip as `z + (clip z - z)` and the sign as `c + (sign c - c)`, and divides by 7. They
  are equal when the entries of both rows are real numbers (the law is proved elsewhere).
-/
import Idealize.ShloMosaic.Lib.ValueIdx
import Idealize.ShloMosaic.PureOps.Ideal.Laws

noncomputable section

namespace Cert.BitLinear

open Idealize.ShloMosaic Idealize.ShloMosaic.ValueIdx

/-- The row length 2048, the stabiliser `ε`, the level count 7, the clip bounds and `-∞`, each as the binary
    pattern the programs spell. -/
def cN : EReal := Ideal.ofBits .f32 0x45000000#32
def cEps : EReal := Ideal.ofBits .f32 0x3727C5AC#32
def cSeven : EReal := Ideal.ofBits .f32 0x40E00000#32
def cLo : EReal := Ideal.ofBits .f32 0xC0DFFFEB#32
def cHi : EReal := Ideal.ofBits .f32 0x40DFFFEB#32
def cNegInf : EReal := Ideal.ofBits .f32 0xFF800000#32

/-- A row of 2048 entries. -/
abbrev Row : Type := Fin 2048 → EReal

def mean (a : Row) : EReal := Ideal.div (∑ k, a k) cN
def cen (a : Row) (k : Fin 2048) : EReal := a k - mean a
def var (a : Row) : EReal := Ideal.div (∑ k, cen a k * cen a k) cN
/-- The largest entry of a row, from `-∞`. -/
def rowMax (f : Row) : EReal := (Finset.univ : Finset (Fin 2048)).fold max cNegInf f
/-- The mean absolute value of a weight row. -/
def beta (w : Row) : EReal := Ideal.div (∑ k, max (w k) (-(w k))) cN

/-! ### The arrangement with the reciprocal square root -/

def xln (a : Row) (k : Fin 2048) : EReal := cen a k * Ideal.rsqrt (var a + cEps)
def gama (a : Row) : EReal := max (rowMax fun k => max (xln a k) (-(xln a k))) cEps
def xq (a : Row) (k : Fin 2048) : EReal := min cHi (max cLo (xln a k * Ideal.div cSeven (gama a)))
def wbin (w : Row) (k : Fin 2048) : EReal := Ideal.sign (cen w k)
/-- An output entry from an activation row, an already binarised weight row `wb`, that row's scale `bt` and a bias. -/
def outK (a wb : Row) (bt b : EReal) : EReal := (∑ k, xq a k * wb k) * ((bt * gama a) * ((1 / 7 : ℝ) : EReal)) + b
def out (a w : Row) (b : EReal) : EReal := outK a (wbin w) (beta w) b

/-! ### The arrangement with the quotient by the square root -/

def xlnR (a : Row) (k : Fin 2048) : EReal := Ideal.div (cen a k) (Ideal.sqrt (var a + cEps))
def gamaR (a : Row) : EReal := max (rowMax fun k => max (xlnR a k) (-(xlnR a k))) cEps
def zR (a : Row) (k : Fin 2048) : EReal := xlnR a k * Ideal.div cSeven (gamaR a)
def xqR (a : Row) (k : Fin 2048) : EReal := zR a k + (min cHi (max cLo (zR a k)) - zR a k)
def wbinR (w : Row) (k : Fin 2048) : EReal := cen w k + (Ideal.sign (cen w k) - cen w k)
def outR (a w : Row) (b : EReal) : EReal := (∑ k, xqR a k * wbinR w k) * Ideal.div (beta w * gamaR a) cSeven + b

/-! ### Whole arrays -/

/-- Row `p` of a matrix with 2048 columns. -/
def rowOf {M : ℕ} (X : (⟨2, ![M, 2048]⟩ : Shape).Idx → EReal) (p : Fin M) : Row := fun k => X (ix2 p k)

/-- The layer's result: entry `(p, q)` from activation row `p`, weight row `q` and bias entry `q`. -/
def G (X : (⟨2, ![8192, 2048]⟩ : Shape).Idx → EReal) (W : (⟨2, ![2048, 2048]⟩ : Shape).Idx → EReal)
    (B : (⟨1, ![2048]⟩ : Shape).Idx → EReal) : (⟨2, ![8192, 2048]⟩ : Shape).Idx → EReal :=
  fun i => out (rowOf X (i 0)) (rowOf W (i 1)) (B (ix1 (n := 2048) (i 1)))

/-- The same in the second arrangement. -/
def GR (X : (⟨2, ![8192, 2048]⟩ : Shape).Idx → EReal) (W : (⟨2, ![2048, 2048]⟩ : Shape).Idx → EReal)
    (B : (⟨1, ![2048]⟩ : Shape).Idx → EReal) : (⟨2, ![8192, 2048]⟩ : Shape).Idx → EReal :=
  fun i => outR (rowOf X (i 0)) (rowOf W (i 1)) (B (ix1 (n := 2048) (i 1)))

/-- The binarised weight matrix and the column of row scales, as the first stage leaves them. -/
def WB (W : (⟨2, ![2048, 2048]⟩ : Shape).Idx → EReal) : (⟨2, ![2048, 2048]⟩ : Shape).Idx → EReal :=
  fun i => wbin (rowOf W (i 0)) (i 1)
def BetaCol (W : (⟨2, ![2048, 2048]⟩ : Shape).Idx → EReal) : (⟨2, ![2048, 1]⟩ : Shape).Idx → EReal :=
  fun i => beta (rowOf W (i 0))

theorem G_apply (X : (⟨2, ![8192, 2048]⟩ : Shape).Idx → EReal) (W : (⟨2, ![2048, 2048]⟩ : Shape).Idx → EReal)
    (B : (⟨1, ![2048]⟩ : Shape).Idx → EReal) (p : Fin 8192) (q : Fin 2048) :
    G X W B (ix2 p q) = out (rowOf X p) (rowOf W q) (B (ix1 q)) := rfl

theorem GR_apply (X : (⟨2, ![8192, 2048]⟩ : Shape).Idx → EReal) (W : (⟨2, ![2048, 2048]⟩ : Shape).Idx → EReal)
    (B : (⟨1, ![2048]⟩ : Shape).Idx → EReal) (p : Fin 8192) (q : Fin 2048) :
    GR X W B (ix2 p q) = outR (rowOf X p) (rowOf W q) (B (ix1 q)) := rfl

theorem WB_apply (W : (⟨2, ![2048, 2048]⟩ : Shape).Idx → EReal) (q k : Fin 2048) :
    WB W (ix2 q k) = wbin (rowOf W q) k := rfl

theorem BetaCol_apply (W : (⟨2, ![2048, 2048]⟩ : Shape).Idx → EReal) (q : Fin 2048) (u : Fin 1) :
    BetaCol W (ix2 q u) = beta (rowOf W q) := rfl

end Cert.BitLinear

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«137446_j77799037599823_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«137446_j77799037599823_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibTransposed.lean ====
/-
  General lemmas: a weight matrix stored with one row per OUTPUT feature, `[N, K]`, so that a dense layer reads
  `X · Wᵀ + b`. Such a matrix read as the `[K, N]` array `tr W` (entry `(k, q)` is `W (q, k)`) turns the product
  that contracts BOTH operands along their last axis into the plain product with `tr W`, and the host's transpose
  by `[1, 0]` is the same reading. With these the layer is the plain `affine` layer of `tr W`, whose entries depend
  on one row of `X` only. None mentions a program.
-/
import proofs.«137446_j77799037599823_2_alg».proof.Proof.LibRowBlocks

noncomputable section

namespace Cert.TransposedLib

open Idealize.ShloMosaic Idealize.ShloMosaic.ValueIdx Cert.LayoutLib Cert.DenseLib Cert.RowBlocks

/-- An `[N, K]` array read as `[K, N]`: entry `(k, q)` is entry `(q, k)` of the array. -/
def tr {N K : ℕ} {α : Type} (W : (⟨2, ![N, K]⟩ : Shape).Idx → α) : (⟨2, ![K, N]⟩ : Shape).Idx → α :=
  fun i => W (ix2 (n0 := N) (i 1) (n1 := K) (i 0))

theorem tr_apply {N K : ℕ} {α : Type} (W : (⟨2, ![N, K]⟩ : Shape).Idx → α) (k : Fin K) (q : Fin N) :
    tr W (ix2 k q) = W (ix2 q k) := rfl

/-- The `[M, K] × [N, K]` product contracting the LAST axis of both operands: its sum over the contraction index, at
    output `(p, q)`, is the sum over `k : Fin K` of the left operand at `(p, k)` times the right operand at `(q, k)`. -/
theorem dot_transposedRhs_sum {M K N : ℕ} (D : DotDims ⟨2, ![M, K]⟩ ⟨2, ![N, K]⟩ ⟨2, ![M, N]⟩)
    (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- A product contracting both operands along their last axis, accumulated into the zero splat, is the plain product
    with the right operand read transposed. -/
theorem matmul_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    matmul D none L R (constant ⟨2, ![M, N]⟩ .f32 0x00000000#32) = mm L (tr R) := by
  funext i
  obtain ⟨p, q, rfl⟩ : ∃ (p : Fin M) (q : Fin N), i = ix2 p q := ⟨i 0, i 1, eq_ix2 i⟩
  exact (Ideal.matmul_constant_zero_apply D none L R (ix2 p q)).trans (dot_transposedRhs_sum D hD L R p q)

/-- The host's transpose of an `[N, K]` array by `[1, 0]` is the same reading. -/
theorem transpose_eq_tr {N K : ℕ} {α : Type} (W : (⟨2, ![N, K]⟩ : Shape).Idx → α)
    (h : (⟨2, ![N, K]⟩ : Shape).Transposes [1, 0] ⟨2, ![K, N]⟩) :
    transpose ⟨2, ![K, N]⟩ [1, 0] W h = tr W := by
  funext i
  obtain ⟨k, q, rfl⟩ : ∃ (k : Fin K) (q : Fin N), i = ix2 k q := ⟨i 0, i 1, eq_ix2 i⟩
  exact transpose_apply [1, 0] W h (ix2 k q) (ix2 q k) (fun b => match b with
    | ⟨0, _⟩ => rfl
    | ⟨1, _⟩ => rfl)

/-- An entry of `P · W + b` is determined by its row of `P`: if row `j 0` of `P'` is row `i 0` of `P`, the weights
    and the bias agree and the columns `j 1`, `i 1` are the same, the two entries are equal. -/
theorem affine_eq_of_row {M M' K N : ℕ} (P' : (⟨2, ![M', K]⟩ : Shape).Idx → EReal) (W' : (⟨2, ![K, N]⟩ : Shape).Idx → EReal)
    (b' : Fin N → EReal) (P : (⟨2, ![M, K]⟩ : Shape).Idx → EReal) (W : (⟨2, ![K, N]⟩ : Shape).Idx → EReal) (b : Fin N → EReal)
    (j : (⟨2, ![M', N]⟩ : Shape).Idx) (i : (⟨2, ![M, N]⟩ : Shape).Idx)
    (hb : b' = b) (hw : W' = W) (hq : (j 1).val = (i 1).val)
    (hx : ∀ k : Fin K, P' (ix2 (n0 := M') (j 0) k) = P (ix2 (n0 := M) (i 0) k)) :
    affine P' W' b' j = affine P W b i :=
  biased_eq_of_entry (mm P' W') b' (mm P W) b j i hb hq (mm_eq_of_row P' W' P W j i hw hq hx)

/-- The vector unit's spelling of the layer on a block of rows: both operands narrowed (the identity on the extended
    reals), the product contracting both last axes accumulated into zero, the one-row bias broadcast down the rows and
    added — the plain layer with the weights read transposed. -/
theorem unit_affine_transposed {M K N : ℕ} (D : DotDims ⟨2, ![M, K]⟩ ⟨2, ![N, K]⟩ ⟨2, ![M, N]⟩)
    (hD : D = DotDims.transposedRhs M K N)
    (X : FVec Ideal ⟨2, ![M, K]⟩ .f32) (W : FVec Ideal ⟨2, ![N, K]⟩ .f32) (v : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩)
    (hx : FTy.bf16.bits < FTy.f32.bits) (hw : FTy.bf16.bits < FTy.f32.bits) :
    addf (matmul D none (truncf .bf16 (shapeCast ⟨2, ![M, K]⟩ X h0) hx) (truncf .bf16 W hw)
        (constant ⟨2, ![M, N]⟩ .f32 0x00000000#32))
      (broadcastTo ⟨2, ![M, N]⟩ (shapeCast ⟨2, ![1, N]⟩ v h2) hb)
      = affine X (tr W) (fun c => v (ix2 (0 : Fin 1) c)) := by
  rw [shapeCast_self, shapeCast_self, matmul_transposedRhs_eq_mm D hD, broadcastTo_eq_rows]
  rfl

end Cert.TransposedLib

end
-- ==== Proof.Stage.lean ====
/-
  What one grid point of each stage computes, read at an index of its block, over the extended reals.

  A block is 256 consecutive rows. The first stage, on a block of weight rows, leaves for each row the signs of its
  centred entries and the mean of its absolute values. The second stage, on a block of activation rows together with
  the whole binarised weight matrix, the row of scales and the row of biases, leaves for entry `(p, q)` the quantised
  row `p` times binarised weight row `q`, rescaled and shifted. Every entry depends on its own row of the block only.
-/
import proofs.«137446_j77799037599823_2_alg».proof.Proof.Spec
import proofs.«137446_j77799037599823_2_alg».proof.Proof.LibTransposed
import proofs.«137446_j77799037599823_2_alg».proof.Proof.Gen.KernelIdeal.Frame
import Idealize.ShloMosaic.Lib.Pipeline.Value
import Idealize.ShloMosaic.Lib.ValueLayout

noncomputable section

namespace Cert.KernelIdeal.Stage

open Idealize.ShloMosaic Idealize.ShloMosaic.ValueIdx Cert.KernelIdeal Cert.KernelIdeal.Gen Cert.BitLinear Cert.LayoutLib

theorem zero_offsets : (![0, 0] : Fin 2 → Nat) = fun _ => 0 := funext fun a => by fin_cases a <;> rfl

/-- The sum along row `p` of a block. -/
theorem rowSum_apply (x : FVec Ideal S256x2048 .f32) (p : Fin 256) :
    multiReduction .add [1] S256 x 0x00000000#32 reduces_S256x2048_S256 (.inl rfl) rfl (ix1 p) = ∑ k : Fin 2048, x (ix2 p k) :=
  (Ideal.multiReduction_add_single x 0x00000000#32 reduces_S256x2048_S256 (.inl rfl) rfl (ix1 p)).trans
    (Finset.sum_congr rfl fun k _ => congrArg x (lift_row reduces_S256x2048_S256 p k))

/-- The column of row means of a block: each row's sum over 2048. -/
def meanCol (x : FVec Ideal S256x2048 .f32) : FVec Ideal S256x1 .f32 :=
  divf (shapeCast S256x1 (multiReduction .add [1] S256 x 0x00000000#32 reduces_S256x2048_S256 (.inl rfl) rfl) shapeCasts_S256_S256x1)
    (broadcast S256x1 (Scalar.ofBits .f32 0x45000000#32))

theorem meanCol_apply (x : FVec Ideal S256x2048 .f32) (p : Fin 256) (u : Fin 1) :
    meanCol x (ix2 p u) = Ideal.div (∑ k : Fin 2048, x (ix2 p k)) cN := by
  show Ideal.div (shapeCast S256x1 _ shapeCasts_S256_S256x1 (ix2 p u)) _ = _
  rw [shapeCast_col_apply, rowSum_apply]
  rfl

/-- A block minus its row means is the centred row. -/
theorem centred_apply (x : FVec Ideal S256x2048 .f32) (p : Fin 256) (k : Fin 2048) :
    subf x (broadcastTo S256x2048 (meanCol x) broadcasts_S256x1_S256x2048) (ix2 p k) = cen (rowOf x p) k := by
  show x (ix2 p k) - broadcastTo S256x2048 (meanCol x) broadcasts_S256x1_S256x2048 (ix2 p k) = _
  rw [broadcastTo_col_apply, meanCol_apply]
  rfl

/-! ### The first stage -/

/-- The sign of each centred weight. -/
theorem signs_apply (x : Vec Ideal S256x2048 .f32) (p : Fin 256) (k : Fin 2048) :
    k0_pay1 x (ix2 p k) = wbin (rowOf x p) k :=
  (Ideal.jnp_sign_eq_sign_f32 _).trans (congrArg Ideal.sign (centred_apply x p k))

/-- The mean absolute value of each weight row. -/
theorem scales_apply (x : Vec Ideal S256x2048 .f32) (p : Fin 256) (u : Fin 1) :
    k0_pay2 x (ix2 p u) = beta (rowOf x p) := by
  show meanCol (absf x) (ix2 p u) = _
  rw [meanCol_apply]
  rfl

theorem block_signs (x0 : Vec Ideal S256x2048 .f32) (p : Fin 256) (k : Fin 2048) :
    out0_1 x0 (ix2 p k) = wbin (rowOf x0 p) k := by
  unfold out0_1
  rw [View.canon_unit_zero zero_offsets]
  simp only [View.ld_unit_zero (S := S256x2048) zero_offsets]
  exact signs_apply x0 p k

theorem block_scales (x0 : Vec Ideal S256x2048 .f32) (p : Fin 256) (u : Fin 1) :
    out0_2 x0 (ix2 p u) = beta (rowOf x0 p) := by
  unfold out0_2
  rw [View.canon_unit_zero zero_offsets]
  simp only [View.ld_unit_zero (S := S256x2048) zero_offsets]
  exact scales_apply x0 p u

/-! ### The second stage -/

/-- The block with its row means taken away. -/
def centredBlk (x : FVec Ideal S256x2048 .f32) : FVec Ideal S256x2048 .f32 :=
  subf x (broadcastTo S256x2048 (meanCol x) broadcasts_S256x1_S256x2048)

/-- The column of row variances. -/
def varCol (x : FVec Ideal S256x2048 .f32) : FVec Ideal S256x1 .f32 := meanCol (mulf (centredBlk x) (centredBlk x))

theorem varCol_apply (x : FVec Ideal S256x2048 .f32) (p : Fin 256) (u : Fin 1) : varCol x (ix2 p u) = var (rowOf x p) := by
  unfold varCol
  rw [meanCol_apply]
  refine congrArg (Ideal.div · cN) (Finset.sum_congr rfl fun k _ => ?_)
  show centredBlk x (ix2 p k) * centredBlk x (ix2 p k) = _
  unfold centredBlk
  rw [centred_apply]

/-- The normalised block: the centred block times the reciprocal square root of variance plus `ε`. -/
def xlnBlk (x : FVec Ideal S256x2048 .f32) : FVec Ideal S256x2048 .f32 :=
  mulf (centredBlk x) (broadcastTo S256x2048
    (rsqrt (addf (varCol x) (broadcast S256x1 (Scalar.ofBits .f32 0x3727C5AC#32)))) broadcasts_S256x1_S256x2048)

theorem xlnBlk_apply (x : FVec Ideal S256x2048 .f32) (p : Fin 256) (k : Fin 2048) : xlnBlk x (ix2 p k) = xln (rowOf x p) k := by
  show centredBlk x (ix2 p k) * broadcastTo S256x2048 _ broadcasts_S256x1_S256x2048 (ix2 p k) = _
  rw [broadcastTo_col_apply]
  show centredBlk x (ix2 p k) * Ideal.rsqrt (varCol x (ix2 p (0 : Fin 1)) + cEps) = _
  rw [varCol_apply]
  unfold centredBlk
  rw [centred_apply]
  rfl

theorem normalised_eq (x : Vec Ideal S256x2048 .f32) : k1_pay2 x = xlnBlk x := rfl

/-- The column of row scales: the largest absolute normalised entry, never below `ε`. -/
def gamaCol (x : FVec Ideal S256x2048 .f32) : FVec Ideal S256x1 .f32 :=
  maximumf (shapeCast S256x1 (multiReduction .maximumf [1] S256 (absf (xlnBlk x)) 0xFF800000#32 reduces_S256x2048_S256 (.inl rfl) rfl)
    shapeCasts_S256_S256x1) (broadcast S256x1 (Scalar.ofBits .f32 0x3727C5AC#32))

theorem gamaCol_apply (x : FVec Ideal S256x2048 .f32) (p : Fin 256) (u : Fin 1) : gamaCol x (ix2 p u) = gama (rowOf x p) := by
  show max (shapeCast S256x1 _ shapeCasts_S256_S256x1 (ix2 p u)) cEps = _
  rw [shapeCast_col_apply]
  refine congrArg (max · cEps) ?_
  refine (Ideal.multiReduction_maximumf_single (absf (xlnBlk x)) 0xFF800000#32 reduces_S256x2048_S256 (.inl rfl) rfl (ix1 p)).trans ?_
  show (Finset.univ : Finset (Fin 2048)).fold max cNegInf
    (fun k : Fin 2048 => FloatOps.absf (xlnBlk x (reduces_S256x2048_S256.lift (ix1 p) k))) = rowMax _
  refine congrArg (fun f => Finset.fold max cNegInf f (Finset.univ : Finset (Fin 2048))) (funext fun k => ?_)
  show FloatOps.absf (xlnBlk x (reduces_S256x2048_S256.lift (ix1 p) k)) = _
  rw [lift_row, xlnBlk_apply]
  rfl

theorem scaleCol_eq (x : Vec Ideal S256x2048 .f32) : k1_pay3 x = gamaCol x := rfl

/-- The quantised block: the normalised block scaled to 7 at its largest entry, then clipped. -/
def xqBlk (x : FVec Ideal S256x2048 .f32) : FVec Ideal S256x2048 .f32 :=
  minimumf (broadcast S256x2048 (Scalar.ofBits .f32 0x40DFFFEB#32))
    (maximumf (broadcast S256x2048 (Scalar.ofBits .f32 0xC0DFFFEB#32))
      (mulf (xlnBlk x) (broadcastTo S256x2048 (divf (broadcast S256x1 (Scalar.ofBits .f32 0x40E00000#32)) (gamaCol x))
        broadcasts_S256x1_S256x2048)))

theorem xqBlk_apply (x : FVec Ideal S256x2048 .f32) (p : Fin 256) (k : Fin 2048) : xqBlk x (ix2 p k) = xq (rowOf x p) k := by
  unfold xqBlk
  rw [minimumf_apply, maximumf_apply, mulf_apply, broadcastTo_col_apply, divf_apply, xlnBlk_apply, gamaCol_apply]
  rfl

/-- The product of the quantised block with the stored weight rows, contracting the last axis of both. -/
theorem product_apply (x : FVec Ideal S256x2048 .f32) (w : FVec Ideal S2048x2048 .bf16) (p : Fin 256) (q : Fin 2048) :
    k1_pay4 (F := Ideal) x w (ix2 p q) = ∑ k : Fin 2048, xq (rowOf x p) k * w (ix2 q k) := by
  show matmul dot_S256x2048_S2048x2048_S256x2048_1_1_0_0_n_n none (truncf .bf16 (xqBlk x) bitsLt_bf16_f32)
    (shapeCast S2048x2048 w shapeCasts_S2048x2048_S2048x2048) (constant S256x2048 .f32 0x00000000#32) (ix2 p q) = _
  rw [shapeCast_self]
  refine (Ideal.matmul_constant_zero_apply (φ₁ := .bf16) (φ₂ := .bf16) dot_S256x2048_S2048x2048_S256x2048_1_1_0_0_n_n none
    (truncf .bf16 (xqBlk x) bitsLt_bf16_f32) w (ix2 p q)).trans ?_
  refine (Cert.TransposedLib.dot_transposedRhs_sum dot_S256x2048_S2048x2048_S256x2048_1_1_0_0_n_n rfl
    (truncf .bf16 (xqBlk x) bitsLt_bf16_f32) w p q).trans ?_
  exact Finset.sum_congr rfl fun k _ => congrArg (· * w (ix2 q k)) (xqBlk_apply x p k)

/-- The rescaling factor before the division by 7: the weight row's scale times the activation row's. -/
theorem factor_apply (x : FVec Ideal S256x2048 .f32) (bt : FVec Ideal S1x2048 .f32) (p : Fin 256) (q : Fin 2048) :
    k1_pay5 x bt (ix2 p q) = bt (ix2 (0 : Fin 1) q) * gama (rowOf x p) := by
  show broadcastTo S256x2048 (shapeCast S1x2048 bt shapeCasts_S1x2048_S1x2048) broadcasts_S1x2048_S256x2048 (ix2 p q)
    * broadcastTo S256x2048 (gamaCol x) broadcasts_S256x1_S256x2048 (ix2 p q) = _
  rw [shapeCast_self, broadcastTo_1b_ab_apply, broadcastTo_col_apply, gamaCol_apply]

/-- The last step: product times factor times the named seventh, plus the bias row. -/
theorem finish_apply (y f : FVec Ideal S256x2048 .f32) (c : Ideal .f32) (bs : FVec Ideal S1x2048 .f32) (p : Fin 256) (q : Fin 2048) :
    k1_pay1 y f c bs (ix2 p q) = y (ix2 p q) * (f (ix2 p q) * c) + bs (ix2 (0 : Fin 1) q) := by
  show y (ix2 p q) * (f (ix2 p q) * c)
    + broadcastTo S256x2048 (shapeCast S1x2048 bs shapeCasts_S1x2048_S1x2048) broadcasts_S1x2048_S256x2048 (ix2 p q) = _
  rw [shapeCast_self, broadcastTo_1b_ab_apply]

/-- The named constant is the rational 1/7. -/
theorem seventh : Named.named (F := Ideal) κ "inv_7" (φ := .f32) 0x3E124925#32 = ((1 / 7 : ℝ) : EReal) :=
  IdealRules.named_const.ideal_named_scalar _ _ _ _ rfl

theorem block_out (x0 : Vec Ideal S256x2048 .f32) (x1 : Vec Ideal S2048x2048 .bf16) (x2 x3 : Vec Ideal S1x2048 .f32)
    (p : Fin 256) (q : Fin 2048) :
    out1_4 x0 x1 x2 x3 (ix2 p q) = outK (rowOf x0 p) (rowOf x1 q) (x2 (ix2 (0 : Fin 1) q)) (x3 (ix2 (0 : Fin 1) q)) := by
  unfold out1_4
  rw [View.canon_unit_zero zero_offsets]
  simp only [View.ld_unit_zero (S := S256x2048) zero_offsets, View.ld_unit_zero (S := S2048x2048) zero_offsets,
    View.ld_unit_zero (S := S1x2048) zero_offsets]
  rw [finish_apply, product_apply, factor_apply, seventh]
  rfl

end Cert.KernelIdeal.Stage

end
-- ==== Proof.Arrays0.lean ====
/-
  The first stage's two result arrays after its run. Grid point `t` of eight reads weight rows `256 t … 256 t + 255`
  and writes back the same rows of the sign matrix and of the column of scales; each written entry is a function of
  its own weight row, so the blocks are the restrictions of one function of the whole weight matrix, and they cover
  the arrays.
-/
import proofs.«137446_j77799037599823_2_alg».proof.Proof.Stage

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.BitLinear Cert.KernelIdeal.Stage
open Idealize.ShloMosaic.Pipeline (Dat)

/-- A block's sign entry is the sign matrix's entry wherever the block's row is the matrix's row. -/
theorem signs_entry (x0 : Vec Ideal S256x2048 .f32) (W : S2048x2048.Idx → EReal) (y : S256x2048.Idx) (i : S2048x2048.Idx)
    (hrow : ∀ k : Fin 2048, x0 (ix2 (y 0) k) = W (ix2 (i 0) k)) (hcol : (y 1).val = (i 1).val) :
    out0_1 x0 y = WB W i := by
  obtain ⟨p, k, rfl⟩ : ∃ (p : Fin 256) (k : Fin 2048), y = ix2 p k := ⟨y 0, y 1, eq_ix2 y⟩
  obtain ⟨q, k', rfl⟩ : ∃ (q : Fin 2048) (k' : Fin 2048), i = ix2 q k' := ⟨i 0, i 1, eq_ix2 i⟩
  obtain rfl : k = k' := Fin.ext hcol
  rw [block_signs, WB_apply]
  exact congrArg (fun r : Row => wbin r k) (funext fun j => hrow j)

/-- The same for the scales. -/
theorem scales_entry (x0 : Vec Ideal S256x2048 .f32) (W : S2048x2048.Idx → EReal) (y : S256x1.Idx) (i : S2048x1.Idx)
    (hrow : ∀ k : Fin 2048, x0 (ix2 (y 0) k) = W (ix2 (i 0) k)) :
    out0_2 x0 y = BetaCol W i := by
  obtain ⟨p, u, rfl⟩ : ∃ (p : Fin 256) (u : Fin 1), y = ix2 p u := ⟨y 0, y 1, eq_ix2 y⟩
  obtain ⟨q, u', rfl⟩ : ∃ (q : Fin 2048) (u' : Fin 1), i = ix2 q u' := ⟨i 0, i 1, eq_ix2 i⟩
  rw [block_scales, BetaCol_apply]
  exact congrArg beta (funext fun j => hrow j)

variable (m : (ℓ : Loc nD τ sig) → Buf (Elt Ideal) ℓ) (ρ : Dev nD → PrngReg)

/-- The three index maps over the eight points: block `t` along the rows, block 0 along the columns. -/
theorem points0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back to the sign matrix is block `t` of the signs of the whole weight matrix. -/
theorem flushed_signs (c : Dev nD) (t : Fin cfg0.N) :
    (dat0 (V0 m ρ) c).flushed 1 t
      = ((cfg0.win 1).blk t).view.read (Elt Ideal) (WB (m ((c : Thread nD τ).loc main_arg1))) := by
  show (cfg0.win 1).cut (grid0.coords t) ((dat0 (V0 m ρ) c).after 1 t) = _
  rw [after0_1]
  obtain ⟨e0, e1, e2, e3, e4, e5⟩ := points0 t
  funext j
  show out0_1 (iblk0 (V0 m ρ) c 0 t) j = WB (m ((c : Thread nD τ).loc main_arg1)) (((cfg0.win 1).blk t).view.emb j)
  refine signs_entry (iblk0 (V0 m ρ) c 0 t) (m ((c : Thread nD τ).loc main_arg1)) j (((cfg0.win 1).blk t).view.emb j) (fun k => ?_) ?_
  · show m ((c : Thread nD τ).loc main_arg1) (((cfg0.win 0).blk t).view.emb (ix2 (j 0) k))
      = m ((c : Thread nD τ).loc main_arg1) (ix2 ((((cfg0.win 1).blk t).view.emb j) 0) k)
    refine congrArg _ (funext fun a => Fin.ext ?_)
    match a with
    | ⟨0, _⟩ => show win0_0.index t (0 : Fin 2) * 256 + 1 * (j 0).val = win0_1.index t (0 : Fin 2) * 256 + 1 * (j 0).val; omega
    | ⟨1, _⟩ => show win0_0.index t (1 : Fin 2) * 2048 + 1 * k.val = k.val; omega
  · show (j 1).val = win0_1.index t (1 : Fin 2) * 2048 + 1 * (j 1).val
    omega

/-- What point `t` writes back to the column of scales is block `t` of the scales of the whole weight matrix. -/
theorem flushed_scales (c : Dev nD) (t : Fin cfg0.N) :
    (dat0 (V0 m ρ) c).flushed 2 t
      = ((cfg0.win 2).blk t).view.read (Elt Ideal) (BetaCol (m ((c : Thread nD τ).loc main_arg1))) := by
  show (cfg0.win 2).cut (grid0.coords t) ((dat0 (V0 m ρ) c).after 2 t) = _
  rw [after0_2]
  obtain ⟨e0, e1, e2, e3, e4, e5⟩ := points0 t
  funext j
  show out0_2 (iblk0 (V0 m ρ) c 0 t) j = BetaCol (m ((c : Thread nD τ).loc main_arg1)) (((cfg0.win 2).blk t).view.emb j)
  refine scales_entry (iblk0 (V0 m ρ) c 0 t) (m ((c : Thread nD τ).loc main_arg1)) j (((cfg0.win 2).blk t).view.emb j) (fun k => ?_)
  show m ((c : Thread nD τ).loc main_arg1) (((cfg0.win 0).blk t).view.emb (ix2 (j 0) k))
    = m ((c : Thread nD τ).loc main_arg1) (ix2 ((((cfg0.win 2).blk t).view.emb j) 0) k)
  refine congrArg _ (funext fun a => Fin.ext ?_)
  match a with
  | ⟨0, _⟩ => show win0_0.index t (0 : Fin 2) * 256 + 1 * (j 0).val = win0_2.index t (0 : Fin 2) * 256 + 1 * (j 0).val; omega
  | ⟨1, _⟩ => show win0_0.index t (1 : Fin 2) * 2048 + 1 * k.val = k.val; omega

/-- An index is in point `t`'s block of the sign matrix iff each coordinate is in the block's range. -/
theorem mem_signs_block (t : Fin cfg0.N) (i : S2048x2048.Idx) :
    i ∈ ((cfg0.win 1).blk t).view.set ↔ ∀ a : Fin 2, win0_1.index t a * S256x2048.size a ≤ (i a).val
      ∧ (i a).val < win0_1.index t a * S256x2048.size a + S256x2048.size a := by
  show i ∈ ((View.whole main_v0_0).slice (win0_1.rect t)).set ↔ _
  rw [View.set_slice_whole, Rect.mem_set_unit]
  exact Iff.rfl

theorem mem_scales_block (t : Fin cfg0.N) (i : S2048x1.Idx) :
    i ∈ ((cfg0.win 2).blk t).view.set ↔ ∀ a : Fin 2, win0_2.index t a * S256x1.size a ≤ (i a).val
      ∧ (i a).val < win0_2.index t a * S256x1.size a + S256x1.size a := by
  show i ∈ ((View.whole main_v0_1).slice (win0_2.rect t)).set ↔ _
  rw [View.set_slice_whole, Rect.mem_set_unit]
  exact Iff.rfl

/-- Row `r` lies in the block of point `r / 256`. -/
theorem point_of_row (r : ℕ) (hr : r < 2048) : ∃ t : Fin cfg0.N, t.val = r / 256 :=
  ⟨⟨r / 256, by have := N_0; show _ < grid0.N; omega⟩, rfl⟩

theorem signs_cover (i : S2048x2048.Idx) :
    ∃ t : Fin cfg0.N, (cfg0.win 1).flush t = true ∧ i ∈ ((cfg0.win 1).blk t).view.set := by
  have h0 : (i 0).val < 2048 := (i 0).isLt
  have h1 : (i 1).val < 2048 := (i 1).isLt
  obtain ⟨t, ht⟩ := point_of_row (i 0).val h0
  obtain ⟨e0, e1, e2, e3, e4, e5⟩ := points0 t
  refine ⟨t, flush0_1 t, ?_⟩
  rw [mem_signs_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 2048 ≤ (i 1).val ∧ (i 1).val < win0_1.index t (1 : Fin 2) * 2048 + 2048; omega

theorem scales_cover (i : S2048x1.Idx) :
    ∃ t : Fin cfg0.N, (cfg0.win 2).flush t = true ∧ i ∈ ((cfg0.win 2).blk t).view.set := by
  have h0 : (i 0).val < 2048 := (i 0).isLt
  have h1 : (i 1).val < 1 := (i 1).isLt
  obtain ⟨t, ht⟩ := point_of_row (i 0).val h0
  obtain ⟨e0, e1, e2, e3, e4, e5⟩ := points0 t
  refine ⟨t, flush0_2 t, ?_⟩
  rw [mem_scales_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1 ≤ (i 1).val ∧ (i 1).val < win0_2.index t (1 : Fin 2) * 1 + 1; omega

/-- After the first stage the sign matrix holds the sign of every centred weight, -/
theorem signs_final (c : Dev nD) :
    (dat0 (V0 m ρ) c).arrAt 1 cfg0.N = WB (m ((c : Thread nD τ).loc main_arg1)) :=
  (dat0 (V0 m ρ) c).arrAt_eq_of_cover 1 (WB (m ((c : Thread nD τ).loc main_arg1))) (fun t _ => flushed_signs m ρ c t) signs_cover

/-- and the column of scales the mean absolute value of every weight row. -/
theorem scales_final (c : Dev nD) :
    (dat0 (V0 m ρ) c).arrAt 2 cfg0.N = BetaCol (m ((c : Thread nD τ).loc main_arg1)) :=
  (dat0 (V0 m ρ) c).arrAt_eq_of_cover 2 (BetaCol (m ((c : Thread nD τ).loc main_arg1))) (fun t _ => flushed_scales m ρ c t) scales_cover

end Cert.KernelIdeal.Arrays

end
-- ==== Proof.Arrays1.lean ====
/-
  The second stage's result array after its run. Grid point `t` of thirty-two reads activation rows
  `256 t … 256 t + 255` together with the whole sign matrix, the whole row of scales and the whole row of biases, and
  writes back the same rows of the result; each written entry is a function of its own activation row and its column's
  weight row, scale and bias, so the blocks are the restrictions of one function of the four arrays, and they cover
  the result.
-/
import proofs.«137446_j77799037599823_2_alg».proof.Proof.Stage

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.BitLinear Cert.KernelIdeal.Stage
open Idealize.ShloMosaic.Pipeline (Dat)

/-- The layer's result from the activations, an already binarised weight matrix, a row of scales and a row of biases. -/
def G1 (X : S8192x2048.Idx → EReal) (A1 : S2048x2048.Idx → EReal) (A2 A3 : S1x2048.Idx → EReal) : S8192x2048.Idx → EReal :=
  fun i => outK (rowOf X (i 0)) (rowOf A1 (i 1)) (A2 (ix2 (0 : Fin 1) (i 1))) (A3 (ix2 (0 : Fin 1) (i 1)))

theorem G1_apply (X : S8192x2048.Idx → EReal) (A1 : S2048x2048.Idx → EReal) (A2 A3 : S1x2048.Idx → EReal) (p : Fin 8192) (q : Fin 2048) :
    G1 X A1 A2 A3 (ix2 p q) = outK (rowOf X p) (rowOf A1 q) (A2 (ix2 (0 : Fin 1) q)) (A3 (ix2 (0 : Fin 1) q)) := rfl

/-- A block's entry is the whole result's entry wherever the block's row is the activations' row. -/
theorem out_entry (x0 : Vec Ideal S256x2048 .f32) (x1 : Vec Ideal S2048x2048 .bf16) (x2 x3 : Vec Ideal S1x2048 .f32)
    (X : S8192x2048.Idx → EReal) (y : S256x2048.Idx) (i : S8192x2048.Idx)
    (hrow : ∀ k : Fin 2048, x0 (ix2 (y 0) k) = X (ix2 (i 0) k)) (hcol : (y 1).val = (i 1).val) :
    out1_4 x0 x1 x2 x3 y = G1 X x1 x2 x3 i := by
  obtain ⟨p, q, rfl⟩ : ∃ (p : Fin 256) (q : Fin 2048), y = ix2 p q := ⟨y 0, y 1, eq_ix2 y⟩
  obtain ⟨p', q', rfl⟩ : ∃ (p' : Fin 8192) (q' : Fin 2048), i = ix2 p' q' := ⟨i 0, i 1, eq_ix2 i⟩
  obtain rfl : q = q' := Fin.ext hcol
  rw [block_out, G1_apply]
  exact congrArg (fun r : Row => outK r (rowOf x1 q) (x2 (ix2 (0 : Fin 1) q)) (x3 (ix2 (0 : Fin 1) q))) (funext fun j => hrow j)

variable (m : (ℓ : Loc nD τ sig) → Buf (Elt Ideal) ℓ) (ρ : Dev nD → PrngReg)

/-- The five index maps over the thirty-two points: the activations and the result move along the rows, the other
    three windows stay on their one block. -/
theorem points1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A window on its one whole block reads its whole array. -/
theorem whole_signs (c : Dev nD) (t : Fin cfg1.N) : iblk1 (V2 m ρ) c 1 t = V2 m ρ c main_v0_0 := by
  obtain ⟨e0, e1, e2, e3, e4, e5, e6, e7, e8, e9⟩ := points1 t
  funext y
  show V2 m ρ c main_v0_0 (((cfg1.win 1).blk t).view.emb y) = V2 m ρ c main_v0_0 y
  refine congrArg _ (funext fun a => Fin.ext ?_)
  match a with
  | ⟨0, _⟩ => show win1_1.index t (0 : Fin 2) * 2048 + 1 * (y 0).val = (y 0).val; omega
  | ⟨1, _⟩ => show win1_1.index t (1 : Fin 2) * 2048 + 1 * (y 1).val = (y 1).val; omega

theorem whole_scales (c : Dev nD) (t : Fin cfg1.N) : iblk1 (V2 m ρ) c 2 t = V2 m ρ c main_v1 := by
  obtain ⟨e0, e1, e2, e3, e4, e5, e6, e7, e8, e9⟩ := points1 t
  funext y
  show V2 m ρ c main_v1 (((cfg1.win 2).blk t).view.emb y) = V2 m ρ c main_v1 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 2048 + 1 * (y 1).val = (y 1).val; omega

theorem whole_bias (c : Dev nD) (t : Fin cfg1.N) : iblk1 (V2 m ρ) c 3 t = V2 m ρ c main_v2 := by
  obtain ⟨e0, e1, e2, e3, e4, e5, e6, e7, e8, e9⟩ := points1 t
  funext y
  show V2 m ρ c main_v2 (((cfg1.win 3).blk t).view.emb y) = V2 m ρ c main_v2 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 2048 + 1 * (y 1).val = (y 1).val; omega

/-- What point `t` writes back is block `t` of the layer's result on the arrays the stage is entered with. -/
theorem flushed_out (c : Dev nD) (t : Fin cfg1.N) :
    (dat1 (V2 m ρ) c).flushed 4 t = ((cfg1.win 4).blk t).view.read (Elt Ideal)
      (G1 (V2 m ρ c main_arg0) (V2 m ρ c main_v0_0) (V2 m ρ c main_v1) (V2 m ρ c main_v2)) := by
  show (cfg1.win 4).cut (grid1.coords t) ((dat1 (V2 m ρ) c).after 4 t) = _
  rw [after1_4, whole_signs, whole_scales, whole_bias]
  obtain ⟨e0, e1, e2, e3, e4, e5, e6, e7, e8, e9⟩ := points1 t
  funext j
  show out1_4 (iblk1 (V2 m ρ) c 0 t) (V2 m ρ c main_v0_0) (V2 m ρ c main_v1) (V2 m ρ c main_v2) j
    = G1 (V2 m ρ c main_arg0) (V2 m ρ c main_v0_0) (V2 m ρ c main_v1) (V2 m ρ c main_v2) (((cfg1.win 4).blk t).view.emb j)
  refine out_entry (iblk1 (V2 m ρ) c 0 t) (V2 m ρ c main_v0_0) (V2 m ρ c main_v1) (V2 m ρ c main_v2) (V2 m ρ c main_arg0) j
    (((cfg1.win 4).blk t).view.emb j) (fun k => ?_) ?_
  · show V2 m ρ c main_arg0 (((cfg1.win 0).blk t).view.emb (ix2 (j 0) k))
      = V2 m ρ c main_arg0 (ix2 ((((cfg1.win 4).blk t).view.emb j) 0) k)
    refine congrArg _ (funext fun a => Fin.ext ?_)
    match a with
    | ⟨0, _⟩ => show win1_0.index t (0 : Fin 2) * 256 + 1 * (j 0).val = win1_4.index t (0 : Fin 2) * 256 + 1 * (j 0).val; omega
    | ⟨1, _⟩ => show win1_0.index t (1 : Fin 2) * 2048 + 1 * k.val = k.val; omega
  · show (j 1).val = win1_4.index t (1 : Fin 2) * 2048 + 1 * (j 1).val
    omega

theorem mem_out_block (t : Fin cfg1.N) (i : S8192x2048.Idx) :
    i ∈ ((cfg1.win 4).blk t).view.set ↔ ∀ a : Fin 2, win1_4.index t a * S256x2048.size a ≤ (i a).val
      ∧ (i a).val < win1_4.index t a * S256x2048.size a + S256x2048.size a := by
  show i ∈ ((View.whole main_v3).slice (win1_4.rect t)).set ↔ _
  rw [View.set_slice_whole, Rect.mem_set_unit]
  exact Iff.rfl

theorem out_cover (i : S8192x2048.Idx) :
    ∃ t : Fin cfg1.N, (cfg1.win 4).flush t = true ∧ i ∈ ((cfg1.win 4).blk t).view.set := by
  have h0 : (i 0).val < 8192 := (i 0).isLt
  have h1 : (i 1).val < 2048 := (i 1).isLt
  obtain ⟨t, ht⟩ : ∃ t : Fin cfg1.N, t.val = (i 0).val / 256 :=
    ⟨⟨(i 0).val / 256, by have := N_1; show _ < grid1.N; omega⟩, rfl⟩
  obtain ⟨e0, e1, e2, e3, e4, e5, e6, e7, e8, e9⟩ := points1 t
  refine ⟨t, flush1_4 t, ?_⟩
  rw [mem_out_block]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 2048 ≤ (i 1).val ∧ (i 1).val < win1_4.index t (1 : Fin 2) * 2048 + 2048; omega

/-- After the second stage the result array holds the layer's result on the arrays the stage is entered with. -/
theorem out_final (c : Dev nD) :
    (dat1 (V2 m ρ) c).arrAt 4 cfg1.N = G1 (V2 m ρ c main_arg0) (V2 m ρ c main_v0_0) (V2 m ρ c main_v1) (V2 m ρ c main_v2) :=
  (dat1 (V2 m ρ) c).arrAt_eq_of_cover 4 (G1 (V2 m ρ c main_arg0) (V2 m ρ c main_v0_0) (V2 m ρ c main_v1) (V2 m ρ c main_v2))
    (fun t _ => flushed_out m ρ c t) out_cover

end Cert.KernelIdeal.Arrays

end
-- ==== Proof.Between.lean ====
/-
  What the second region finds in its arrays. Between the two regions the program only reshapes: the column of
  weight scales becomes a row and the bias vector becomes a row; nothing else is written. So at the second region's
  entry the activations are as launched, the binarised weights and the scales are what the first region left
  (the scales read in row-major order at the row's shape), and the bias row is the launched bias at the row's shape.
-/
import proofs.«137446_j77799037599823_2_alg».proof.Proof.Gen.KernelIdeal.Frame
import Idealize.ShloMosaic.Lib.StableHlo.Run
import Idealize.ShloMosaic.Lib.Pipeline.Value

noncomputable section

namespace Cert.KernelIdeal.Between

open Cert.KernelIdeal Cert.KernelIdeal.Gen Idealize.ShloMosaic Idealize.ShloMosaic.TcCoe Idealize.SL.Sem

variable {F : FTy → Type} [FloatOps F] [Named F] (m : (ℓ : Loc nD τ sig) → Buf (Elt F) ℓ) (ρ : Dev nD → PrngReg)

/-- The activations: no reshape writes them and the first region does not touch them, so they are as launched. -/
theorem V2_arg0 (c : Dev nD) : V2 m ρ c main_arg0 = m ((c : Thread nD τ).loc main_arg0) :=
  calc V2 m ρ c main_arg0
    _ = W1 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

/-- The binarised weights: no reshape writes them, so they are what the first region's second window left. -/
theorem V2_wbin (c : Dev nD) : V2 m ρ c main_v0_0 = (dat0 (V0 m ρ) c).arrAt 1 cfg0.N :=
  calc V2 m ρ c main_v0_0
    _ = W1 m ρ c (Proc.devRef .tc main_v0_0) := StableHlo.after_of_forall_not_mem (b := Proc.devRef .tc main_v0_0) _ _ (List.forall_iff_forall_mem.mp (by
          simp only [hostOps1, List.Forall, StableHlo.reshape_writes, Finset.mem_singleton]
          repeat' apply And.intro
          all_goals exact StableHlo.devRef_ne_of_ne (by decide)))
    _ = (dat0 (V0 m ρ) c).arrAt 1 cfg0.N := W1_arr m ρ c 1

/-- The row of weight scales: the first reshape writes it from the column the first region's third window left; the
    second reshape writes another buffer. -/
theorem V2_scales (c : Dev nD) :
    V2 m ρ c main_v1 = shapeCast S1x2048 ((dat0 (V0 m ρ) c).arrAt 2 cfg0.N) shapeCasts_S2048x1_S1x2048 := by
  show StableHlo.after hostOps1 (W1 m ρ c) (Proc.devRef .tc main_v1) = _
  after_results
  rw [W1_arr m ρ c 2]
  rfl

/-- The bias row: the second reshape writes it from the bias vector, which neither the first reshape nor the first
    region writes, so it is the launched bias at the row's shape. -/
theorem V2_bias (c : Dev nD) :
    V2 m ρ c main_v2 = shapeCast S1x2048 (m ((c : Thread nD τ).loc main_arg2)) shapeCasts_S2048_S1x2048 := by
  show StableHlo.after hostOps1 (W1 m ρ c) (Proc.devRef .tc main_v2) = _
  after_results
  rw [W1_of_ne m ρ c main_arg2 (by decide)]
  rfl

end Cert.KernelIdeal.Between

end
-- ==== Proof.KRun.lean ====
/-
  The idealized program's run with its result named. The run of the two stages with the reshapes between them ends,
  on every core, with every unscoped buffer at the contents the fold through the program gives it; read at the result
  buffer this is what the second stage's write-backs leave, and at the three arguments it is the launch contents.
-/
import proofs.«137446_j77799037599823_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the fold's contents and the
    arguments end as launched. -/
theorem run : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.RunV

end
-- ==== Proof.Result.lean ====
/-
  The idealized program's result as one function of its three arguments. The second stage is entered with the
  activations as launched, the sign matrix and the scales as the first stage left them (the scales recast from a column
  to a row) and the bias recast to a row; its result array is the layer's result on those, which is the layer's result
  on the arguments. So every execution ends with the result buffer at `G` of the arguments.
-/
import proofs.«137446_j77799037599823_2_alg».proof.Proof.Arrays0
import proofs.«137446_j77799037599823_2_alg».proof.Proof.Arrays1
import proofs.«137446_j77799037599823_2_alg».proof.Proof.Between
import proofs.«137446_j77799037599823_2_alg».proof.Proof.KRun

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.BitLinear Cert.KernelIdeal.Arrays Cert.KernelIdeal.Between

/-- A column `[2048, 1]` recast to a row `[1, 2048]` reads, at `(u, q)`, the column at `q`. -/
theorem colAsRow_apply (v : S2048x1.Idx → EReal) (u : Fin 1) (q : Fin 2048) :
    shapeCast S1x2048 v shapeCasts_S2048x1_S1x2048 (ix2 u q) = v (ix2 q (0 : Fin 1)) :=
  shapeCast_apply v shapeCasts_S2048x1_S1x2048 _ _ (by
    have hu : u.val = 0 := by omega
    rw [Shape.rowMajor_val_two, Shape.rowMajor_val_two]
    show q.val * 1 + 0 = u.val * 2048 + q.val
    omega)

variable (m : (ℓ : Loc nD τ sig) → Buf (Elt Ideal) ℓ) (ρ : Dev nD → PrngReg)

/-- The result buffer's final contents are the layer's result on the launch contents of the arguments. -/
theorem result_eq (c : Dev nD) :
    W3 m ρ c (Proc.devRef .tc main_v3)
      = G (m ((c : Thread nD τ).loc main_arg0)) (m ((c : Thread nD τ).loc main_arg1)) (m ((c : Thread nD τ).loc main_arg2)) := by
  refine (W3_arr m ρ c 4).trans ?_
  rw [out_final m ρ c, V2_arg0 m ρ c, V2_wbin m ρ c, V2_scales m ρ c, V2_bias m ρ c, signs_final m ρ c, scales_final m ρ c]
  funext i
  obtain ⟨p, q, rfl⟩ : ∃ (p : Fin 8192) (q : Fin 2048), i = ix2 p q := ⟨i 0, i 1, eq_ix2 i⟩
  rw [G1_apply, G_apply, colAsRow_apply, Cert.RowBlocks.shapeCast_vecRow_apply]
  rfl

/-- Every weakly fair execution of the idealized program terminates with the result at `G` of the arguments and the
    arguments unchanged. -/
theorem run : θ_run defs (onTc (τ := τ) (main (F := Ideal))) ⟨m, fun _ => 0, ρ⟩ (fun r => ∀ c : Dev nD,
      r.2.mem ((c.tc : Thread nD τ).loc main_v3)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Cert.KernelIdeal.RunV.run m ρ)

end Cert.KernelIdeal.Result

end
-- ==== Proof.RefStages.lean ====
/-
  The reference program, stage by stage, in the vocabulary of the specification: each intermediate array of the
  reference, read at an index built from coordinates, is the corresponding row function (mean, centred entry,
  variance, normalised entry, scale, quantised entry, binarised weight, weight scale), and the final array is the
  layer's result in the arrangement with the quotient by the square root.
-/
import proofs.«137446_j77799037599823_2_alg».proof.Proof.Spec
import proofs.«137446_j77799037599823_2_alg».proof.Proof.Gen.ReferenceIdeal.Read
import proofs.«137446_j77799037599823_2_alg».proof.Proof.LibIndex

noncomputable section

namespace Cert.BitLinear.Ref

open Idealize.ShloMosaic Idealize.ShloMosaic.ValueIdx Cert.ReferenceIdeal Cert.ReferenceIdeal.Gen Cert.ReferenceIdeal.Read
  Cert.BitLinear

/-- The activations, the weights and the bias as arrays of extended reals. -/
abbrev XArr : Type := (⟨S8192x2048, .f32⟩ : BufTy).Contents (Elt Ideal)
abbrev WArr : Type := (⟨S2048x2048, .f32⟩ : BufTy).Contents (Elt Ideal)
abbrev BArr : Type := (⟨S2048, .f32⟩ : BufTy).Contents (Elt Ideal)

/-- A sum started from the constant zero is the sum. -/
theorem zero_cst_add (s : EReal) : Ideal.ofBits .f32 0x00000000#32 + s = s := by
  rw [Ideal.ofBits_zero_f32, zero_add]

/-! ### The weight stages -/

/-- The row sums of the weights. -/
theorem w_v0 (W : WArr) (q : Fin 2048) : val_main_v0 (F := Ideal) W (ix1 q) = ∑ k, W (ix2 q k) := by
  rw [val_main_v0_apply]
  refine (zero_cst_add _).trans (Finset.sum_congr rfl fun k _ => congrArg W ?_)
  exact funext fun a => Fin.ext (by match a with | ⟨0, _⟩ => rfl | ⟨1, _⟩ => rfl)

/-- The column of row means. -/
theorem w_v3 (W : WArr) (q : Fin 2048) (u : Fin 1) : val_main_v3 (F := Ideal) W (ix2 q u) = mean (rowOf W q) := by
  rw [val_main_v3_apply, val_main_v1_apply, val_main_v2_apply]
  have e : idx_main_v1 (ix2 q u) = ix1 q := funext fun a => Fin.ext (by match a with | ⟨0, _⟩ => rfl)
  rw [e, w_v0]
  rfl

/-- The centred weights. -/
theorem w_v5 (W : WArr) (q k : Fin 2048) : val_main_v5 (F := Ideal) W (ix2 q k) = cen (rowOf W q) k := by
  rw [val_main_v5_apply, val_main_v4_apply]
  have e : idx_main_v4 (ix2 q k) = ix2 q (0 : Fin 1) :=
    funext fun a => Fin.ext (by match a with | ⟨0, _⟩ => rfl | ⟨1, _⟩ => rfl)
  rw [e, w_v3]
  rfl

/-- The binarised weights, written as the centred value plus the difference to its sign. -/
theorem w_v8 (W : WArr) (q k : Fin 2048) : val_main_v8 (F := Ideal) W (ix2 q k) = wbinR (rowOf W q) k := by
  rw [val_main_v8_apply, val_main_v7_apply, val_main_v6_apply, w_v5]
  rfl

/-- The row of weight scales: the mean absolute value of each weight row. -/
theorem w_v13 (W : WArr) (u : Fin 1) (q : Fin 2048) : val_main_v13 (F := Ideal) W (ix2 u q) = beta (rowOf W q) := by
  rw [val_main_v13_apply, val_main_v12_apply, val_main_v11_apply, val_main_v10_apply]
  have e : idx_main_v13 (ix2 u q) = ix1 q := funext fun a => Fin.ext (by match a with | ⟨0, _⟩ => rfl)
  rw [e]
  have s : (∑ k : Fin 2048, val_main_v9 (F := Ideal) W (idx_main_v10 (ix1 q) k)) = ∑ k, max (rowOf W q k) (-(rowOf W q k)) :=
    Finset.sum_congr rfl fun k _ => by
      rw [val_main_v9_apply]
      have e' : idx_main_v10 (ix1 q) k = ix2 q k :=
        funext fun a => Fin.ext (by match a with | ⟨0, _⟩ => rfl | ⟨1, _⟩ => rfl)
      rw [e']
      rfl
  rw [s]
  exact congrArg (fun t => Ideal.div t cN) (zero_cst_add _)

/-! ### The activation stages -/

/-- The row sums of the activations. -/
theorem x_v14 (X : XArr) (p : Fin 8192) : val_main_v14 (F := Ideal) X (ix1 p) = ∑ k, X (ix2 p k) := by
  rw [val_main_v14_apply]
  refine (zero_cst_add _).trans (Finset.sum_congr rfl fun k _ => congrArg X ?_)
  exact funext fun a => Fin.ext (by match a with | ⟨0, _⟩ => rfl | ⟨1, _⟩ => rfl)

/-- The column of row means. -/
theorem x_v17 (X : XArr) (p : Fin 8192) (u : Fin 1) : val_main_v17 (F := Ideal) X (ix2 p u) = mean (rowOf X p) := by
  rw [val_main_v17_apply, val_main_v15_apply, val_main_v16_apply]
  have e : idx_main_v15 (ix2 p u) = ix1 p := funext fun a => Fin.ext (by match a with | ⟨0, _⟩ => rfl)
  rw [e, x_v14]
  rfl

/-- The centred activations (the copy the variance is computed from). -/
theorem x_v19 (X : XArr) (p : Fin 8192) (k : Fin 2048) : val_main_v19 (F := Ideal) X (ix2 p k) = cen (rowOf X p) k := by
  rw [val_main_v19_apply, val_main_v18_apply]
  have e : idx_main_v18 (ix2 p k) = ix2 p (0 : Fin 1) :=
    funext fun a => Fin.ext (by match a with | ⟨0, _⟩ => rfl | ⟨1, _⟩ => rfl)
  rw [e, x_v17]
  rfl

/-- The centred activations (the copy that is normalised). -/
theorem x_v26 (X : XArr) (p : Fin 8192) (k : Fin 2048) : val_main_v26 (F := Ideal) X (ix2 p k) = cen (rowOf X p) k := by
  rw [val_main_v26_apply, val_main_v25_apply]
  have e : idx_main_v25 (ix2 p k) = ix2 p (0 : Fin 1) :=
    funext fun a => Fin.ext (by match a with | ⟨0, _⟩ => rfl | ⟨1, _⟩ => rfl)
  rw [e, x_v17]
  rfl

/-- The row sums of the squared centred activations. -/
theorem x_v21 (X : XArr) (p : Fin 8192) :
    val_main_v21 (F := Ideal) X (ix1 p) = ∑ k, cen (rowOf X p) k * cen (rowOf X p) k := by
  rw [val_main_v21_apply]
  refine (zero_cst_add _).trans (Finset.sum_congr rfl fun k _ => ?_)
  have e : idx_main_v21 (ix1 p) k = ix2 p k :=
    funext fun a => Fin.ext (by match a with | ⟨0, _⟩ => rfl | ⟨1, _⟩ => rfl)
  rw [e, val_main_v20_apply, x_v19]
  rfl

/-- The column of row variances. -/
theorem x_v24 (X : XArr) (p : Fin 8192) (u : Fin 1) : val_main_v24 (F := Ideal) X (ix2 p u) = var (rowOf X p) := by
  rw [val_main_v24_apply, val_main_v22_apply, val_main_v23_apply]
  have e : idx_main_v22 (ix2 p u) = ix1 p := funext fun a => Fin.ext (by match a with | ⟨0, _⟩ => rfl)
  rw [e, x_v21]
  rfl

/-- The column of square roots of the stabilised variances. -/
theorem x_v29 (X : XArr) (p : Fin 8192) (u : Fin 1) :
    val_main_v29 (F := Ideal) X (ix2 p u) = Ideal.sqrt (var (rowOf X p) + cEps) := by
  rw [val_main_v29_apply, val_main_v28_apply, val_main_v27_apply, x_v24]
  rfl

/-- The normalised activations. -/
theorem x_v31 (X : XArr) (p : Fin 8192) (k : Fin 2048) : val_main_v31 (F := Ideal) X (ix2 p k) = xlnR (rowOf X p) k := by
  rw [val_main_v31_apply, val_main_v30_apply, x_v26]
  have e : idx_main_v30 (ix2 p k) = ix2 p (0 : Fin 1) :=
    funext fun a => Fin.ext (by match a with | ⟨0, _⟩ => rfl | ⟨1, _⟩ => rfl)
  rw [e, x_v29]
  rfl

/-- Their absolute values. -/
theorem x_v32 (X : XArr) (p : Fin 8192) (k : Fin 2048) :
    val_main_v32 (F := Ideal) X (ix2 p k) = max (xlnR (rowOf X p) k) (-(xlnR (rowOf X p) k)) := by
  rw [val_main_v32_apply, x_v31]
  rfl

/-- The activations' shape loses its second axis under a reduction along the rows. -/
theorem reduces_rows : S8192x2048.Reduces [1] S8192 := by decide

/-- The row maxima of the absolute values: the fold of the maximum over the row, started from minus infinity. -/
theorem x_v33 (X : XArr) (p : Fin 8192) :
    val_main_v33 (F := Ideal) X (ix1 p) = rowMax fun k => max (xlnR (rowOf X p) k) (-(xlnR (rowOf X p) k)) := by
  unfold val_main_v33
  refine (Host.reduce_eq_fold_single FloatOps.maximumf _ _ reducesTo_S8192x2048_S8192_d1 reduces_rows h_S_ (ix1 p)).trans ?_
  have hf : (val_main_v32 (F := Ideal) X ∘ reduces_rows.lift (ix1 p))
      = fun k : Fin 2048 => max (xlnR (rowOf X p) k) (-(xlnR (rowOf X p) k)) :=
    funext fun (k : Fin 2048) =>
      (congrArg (val_main_v32 (F := Ideal) X) (Cert.LayoutLib.lift_row reduces_rows p k)).trans (x_v32 X p k)
  exact congrArg (fun f => Finset.fold max cNegInf f (Finset.univ : Finset (Fin 2048))) hf

/-- The column of activation scales: the row maximum, never below the stabiliser. -/
theorem x_v36 (X : XArr) (p : Fin 8192) (u : Fin 1) : val_main_v36 (F := Ideal) X (ix2 p u) = gamaR (rowOf X p) := by
  rw [val_main_v36_apply, val_main_v34_apply, val_main_v35_apply]
  have e : idx_main_v34 (ix2 p u) = ix1 p := funext fun a => Fin.ext (by match a with | ⟨0, _⟩ => rfl)
  rw [e, x_v33]
  rfl

/-- The column of quotients of the level count by the scale. -/
theorem x_v38 (X : XArr) (p : Fin 8192) (u : Fin 1) :
    val_main_v38 (F := Ideal) X (ix2 p u) = Ideal.div cSeven (gamaR (rowOf X p)) := by
  rw [val_main_v38_apply, val_main_v37_apply, x_v36]
  rfl

/-- The scaled activations, before the clip. -/
theorem x_v40 (X : XArr) (p : Fin 8192) (k : Fin 2048) : val_main_v40 (F := Ideal) X (ix2 p k) = zR (rowOf X p) k := by
  rw [val_main_v40_apply, val_main_v39_apply, x_v31]
  have e : idx_main_v39 (ix2 p k) = ix2 p (0 : Fin 1) :=
    funext fun a => Fin.ext (by match a with | ⟨0, _⟩ => rfl | ⟨1, _⟩ => rfl)
  rw [e, x_v38]
  rfl

/-- The clipped scaled activations. -/
theorem x_v41 (X : XArr) (p : Fin 8192) (k : Fin 2048) :
    val_main_v41 (F := Ideal) X (ix2 p k) = min cHi (max cLo (zR (rowOf X p) k)) := by
  rw [val_main_v41_apply, val_main_call0_v4_apply, val_main_call0_v3_apply, val_main_call0_v2_apply,
    val_main_call0_v1_apply, val_main_call0_v0_apply, x_v40]
  rfl

/-- The quantised activations, written as the scaled value plus the difference to its clip. -/
theorem x_v43 (X : XArr) (p : Fin 8192) (k : Fin 2048) : val_main_v43 (F := Ideal) X (ix2 p k) = xqR (rowOf X p) k := by
  rw [val_main_v43_apply, val_main_v42_apply, x_v41, x_v40]
  rfl

/-! ### The result -/

/-- The product of the quantised activations with the binarised weights, summed over the shared axis. -/
theorem r_v44 (X : XArr) (W : WArr) (p : Fin 8192) (q : Fin 2048) :
    val_main_v44 (F := Ideal) X W (ix2 p q) = ∑ k, xqR (rowOf X p) k * wbinR (rowOf W q) k := by
  rw [val_main_v44_apply]
  refine Finset.sum_congr rfl fun k _ => ?_
  have el : lidx_main_v44 (ix2 p q) k = ix2 p k :=
    funext fun a => Fin.ext (by match a with | ⟨0, _⟩ => rfl | ⟨1, _⟩ => rfl)
  have er : ridx_main_v44 (ix2 p q) k = ix2 q k :=
    funext fun a => Fin.ext (by match a with | ⟨0, _⟩ => rfl | ⟨1, _⟩ => rfl)
  rw [el, er, x_v43, w_v8]

/-- The rescaling factor: the weight scale times the activation scale, divided by the level count. -/
theorem r_v49 (X : XArr) (W : WArr) (p : Fin 8192) (q : Fin 2048) :
    val_main_v49 (F := Ideal) X W (ix2 p q) = Ideal.div (beta (rowOf W q) * gamaR (rowOf X p)) cSeven := by
  rw [val_main_v49_apply, val_main_v47_apply, val_main_v45_apply, val_main_v46_apply, val_main_v48_apply]
  have e5 : idx_main_v45 (ix2 p q) = ix2 (0 : Fin 1) q :=
    funext fun a => Fin.ext (by match a with | ⟨0, _⟩ => rfl | ⟨1, _⟩ => rfl)
  have e6 : idx_main_v46 (ix2 p q) = ix2 p (0 : Fin 1) :=
    funext fun a => Fin.ext (by match a with | ⟨0, _⟩ => rfl | ⟨1, _⟩ => rfl)
  rw [e5, e6, w_v13, x_v36]
  rfl

/-- The bias, repeated along the rows. -/
theorem r_v52 (B : BArr) (p : Fin 8192) (q : Fin 2048) : val_main_v52 (F := Ideal) B (ix2 p q) = B (ix1 q) := by
  rw [val_main_v52_apply, val_main_v51_apply]
  exact congrArg B (funext fun a => Fin.ext (by match a with | ⟨0, _⟩ => rfl))

/-- The reference program's result is the layer's result in the arrangement with the quotient by the square root. -/
theorem ref_eq_GR (X : (⟨Cert.ReferenceIdeal.S8192x2048, .f32⟩ : BufTy).Contents (Elt Ideal))
    (W : (⟨Cert.ReferenceIdeal.S2048x2048, .f32⟩ : BufTy).Contents (Elt Ideal))
    (B : (⟨Cert.ReferenceIdeal.S2048, .f32⟩ : BufTy).Contents (Elt Ideal)) :
    Cert.ReferenceIdeal.Read.val_main_v53 (F := Ideal) X W B = Cert.BitLinear.GR X W B := by
  funext i
  obtain ⟨p, q, rfl⟩ : ∃ (p : Fin 8192) (q : Fin 2048), i = ix2 p q := ⟨i 0, i 1, eq_ix2 i⟩
  rw [GR_apply, val_main_v53_apply, val_main_v50_apply, r_v44, r_v49, r_v52]
  rfl

end Cert.BitLinear.Ref

end
-- ==== Proof.Law.lean ====
/-
  The two arrangements of an output entry stated in the specification agree when both rows consist of real numbers.

  On the extended reals the laws used here can fail at the infinities: a quotient by a square root is a product with
  the reciprocal square root only off zero and infinity, and z + (c - z) = c needs z finite. So the proof first
  shows that every intermediate quantity built from a real row is a real number: the mean, the centred entries, the
  variance (a real that is not negative), the variance plus the stabiliser (a positive real), its square root (a
  nonzero real), the normalised entries, their largest absolute value (the maximum over a nonempty index set) and
  the scale (a real at least the stabiliser, hence positive). With that the two arrangements agree term by term.
-/
import proofs.«137446_j77799037599823_2_alg».proof.Proof.Spec

noncomputable section

namespace Cert.BitLinear

open Idealize.ShloMosaic

/-! ### The constants -/

/-- The pattern of the row length denotes the real 2048. -/
theorem cN_eq : cN = ((2048 : ℝ) : EReal) := by
  simp [cN, Ideal.ofBits, Ideal.ieee, -EReal.coe_mul]; norm_num

/-- The pattern of the level count denotes the real 7. -/
theorem cSeven_eq : cSeven = ((7 : ℝ) : EReal) := by
  simp [cSeven, Ideal.ofBits, Ideal.ieee, -EReal.coe_mul]; norm_num

/-- The pattern with sign bit set, all exponent bits set and no fraction bit denotes -∞. -/
theorem cNegInf_eq : cNegInf = ⊥ := by
  simp [cNegInf, Ideal.ofBits, Ideal.ieee]

/-- The stabiliser: exponent field 110 and fraction 2606508, that is (2^23 + 2606508) · 2^(110 - 127 - 23). -/
theorem cEps_eq : cEps = ((10995116 * (2 ^ 40)⁻¹ : ℝ) : EReal) := by
  simp [cEps, Ideal.ofBits, Ideal.ieee, -EReal.coe_mul]

/-- The stabiliser is a positive real. -/
theorem cEps_pos : ∃ e : ℝ, 0 < e ∧ cEps = (e : EReal) :=
  ⟨10995116 * (2 ^ 40)⁻¹, by positivity, cEps_eq⟩

/-! ### Real numbers inside the extended reals are closed under the operations used -/

/-- An extended real that is a real number. -/
abbrev IsReal (x : EReal) : Prop := ∃ r : ℝ, x = (r : EReal)

theorem isReal_coe (r : ℝ) : IsReal (r : EReal) := ⟨r, rfl⟩

theorem isReal_add {x y : EReal} (hx : IsReal x) (hy : IsReal y) : IsReal (x + y) := by
  obtain ⟨r, rfl⟩ := hx; obtain ⟨s, rfl⟩ := hy
  exact ⟨r + s, (EReal.coe_add r s).symm⟩

theorem isReal_sub {x y : EReal} (hx : IsReal x) (hy : IsReal y) : IsReal (x - y) := by
  obtain ⟨r, rfl⟩ := hx; obtain ⟨s, rfl⟩ := hy
  exact ⟨r - s, (EReal.coe_sub r s).symm⟩

theorem isReal_mul {x y : EReal} (hx : IsReal x) (hy : IsReal y) : IsReal (x * y) := by
  obtain ⟨r, rfl⟩ := hx; obtain ⟨s, rfl⟩ := hy
  exact ⟨r * s, (EReal.coe_mul r s).symm⟩

theorem isReal_neg {x : EReal} (hx : IsReal x) : IsReal (-x) := by
  obtain ⟨r, rfl⟩ := hx
  exact ⟨-r, (EReal.coe_neg r).symm⟩

theorem isReal_max {x y : EReal} (hx : IsReal x) (hy : IsReal y) : IsReal (max x y) := by
  obtain ⟨r, rfl⟩ := hx; obtain ⟨s, rfl⟩ := hy
  exact ⟨max r s, (EReal.coe_strictMono.monotone.map_max (a := r) (b := s))⟩

/-- A finite sum of real numbers, taken in the extended reals, is the real sum. -/
theorem coe_sum (s : Finset (Fin 2048)) (F : Fin 2048 → ℝ) :
    ∑ k ∈ s, (F k : EReal) = ((∑ k ∈ s, F k : ℝ) : EReal) := by
  induction s using Finset.induction_on with
  | empty => simp
  | insert a s ha ih => rw [Finset.sum_insert ha, Finset.sum_insert ha, ih, EReal.coe_add]

/-- The quotient of a real by a nonzero real, taken in the extended reals, is the real quotient. -/
theorem div_coe_coe (r : ℝ) {c : ℝ} (hc : c ≠ 0) : Ideal.div (r : EReal) (c : EReal) = ((r / c : ℝ) : EReal) := by
  rw [Ideal.div_coe hc, ← EReal.coe_mul, mul_one_div]

/-! ### The law behind the second arrangement's clip and sign -/

/-- For a real z and any extended real c, z + (c - z) = c. -/
theorem add_sub_cancel_coe (z : ℝ) (c : EReal) : (z : EReal) + (c - (z : EReal)) = c := by
  induction c using EReal.rec with
  | bot => simp
  | top => simp
  | coe r => rw [← EReal.coe_sub, ← EReal.coe_add]; congr 1; ring

theorem add_sub_cancel_of_isReal {z : EReal} (hz : IsReal z) (c : EReal) : z + (c - z) = c := by
  obtain ⟨r, rfl⟩ := hz
  exact add_sub_cancel_coe r c

/-! ### A real row: mean, centred entries, variance -/

section RealRow

variable {a : Row} {A : Fin 2048 → ℝ}

/-- The sum of a real row is the real sum. -/
theorem sum_row (ha : ∀ k, a k = (A k : EReal)) : ∑ k, a k = ((∑ k, A k : ℝ) : EReal) := by
  rw [← coe_sum]; exact Finset.sum_congr rfl fun k _ => ha k

theorem mean_real (ha : ∀ k, a k = (A k : EReal)) : mean a = (((∑ k, A k) / 2048 : ℝ) : EReal) := by
  rw [mean, sum_row ha, cN_eq, div_coe_coe _ (by norm_num)]

theorem cen_real (ha : ∀ k, a k = (A k : EReal)) (k : Fin 2048) :
    cen a k = ((A k - (∑ k, A k) / 2048 : ℝ) : EReal) := by
  rw [cen, mean_real ha, ha k, ← EReal.coe_sub]

theorem cen_sq_real (ha : ∀ k, a k = (A k : EReal)) (k : Fin 2048) :
    cen a k * cen a k
      = (((A k - (∑ k, A k) / 2048) * (A k - (∑ k, A k) / 2048) : ℝ) : EReal) := by
  rw [cen_real ha k, ← EReal.coe_mul]

/-- The variance of a real row is a real that is not negative. -/
theorem var_real (ha : ∀ k, a k = (A k : EReal)) : ∃ v : ℝ, 0 ≤ v ∧ var a = (v : EReal) := by
  refine ⟨(∑ k, (A k - (∑ k, A k) / 2048) * (A k - (∑ k, A k) / 2048)) / 2048, ?_, ?_⟩
  · exact div_nonneg (Finset.sum_nonneg fun k _ => mul_self_nonneg _) (by norm_num)
  · rw [var, cN_eq, ← div_coe_coe _ (by norm_num : (2048 : ℝ) ≠ 0), ← coe_sum]
    exact congrArg (fun s => Ideal.div s _) (Finset.sum_congr rfl fun k _ => cen_sq_real ha k)

/-- The variance plus the stabiliser is a positive real. -/
theorem var_add_eps_real (ha : ∀ k, a k = (A k : EReal)) : ∃ v : ℝ, 0 < v ∧ var a + cEps = (v : EReal) := by
  obtain ⟨v, hv, hvar⟩ := var_real ha
  obtain ⟨e, he, heps⟩ := cEps_pos
  exact ⟨v + e, by linarith, by rw [hvar, heps, EReal.coe_add]⟩

end RealRow

/-! ### Square root and reciprocal square root of a positive real -/

theorem sqrt_of_pos {v : ℝ} (hv : 0 < v) : Ideal.sqrt (v : EReal) = ((Real.sqrt v : ℝ) : EReal) := by
  rw [Ideal.sqrt_coe, if_neg (not_lt.mpr hv.le)]

theorem rsqrt_of_pos {v : ℝ} (hv : 0 < v) : Ideal.rsqrt (v : EReal) = (((Real.sqrt v)⁻¹ : ℝ) : EReal) := by
  rw [Ideal.rsqrt_coe, if_neg (not_lt.mpr hv.le), if_neg hv.ne']

/-- Off zero, the quotient by the square root is the product with the reciprocal square root. -/
theorem div_sqrt_eq_mul_rsqrt {v : ℝ} (hv : 0 < v) (x : EReal) :
    Ideal.div x (Ideal.sqrt (v : EReal)) = x * Ideal.rsqrt (v : EReal) := by
  rw [sqrt_of_pos hv, rsqrt_of_pos hv, Ideal.div_coe (Real.sqrt_pos.mpr hv).ne', one_div]

/-! ### The normalised entries and the scale of a real row -/

section Normalised

variable {a : Row}

theorem cen_isReal (ha : ∀ k, IsReal (a k)) (k : Fin 2048) : IsReal (cen a k) := by
  choose A hA using ha
  exact ⟨_, cen_real hA k⟩

/-- The two ways of normalising a real row agree. -/
theorem xlnR_eq_xln (ha : ∀ k, IsReal (a k)) : xlnR a = xln a := by
  choose A hA using ha
  obtain ⟨v, hv, hve⟩ := var_add_eps_real hA
  funext k
  rw [xlnR, xln, hve, div_sqrt_eq_mul_rsqrt hv]

theorem xln_isReal (ha : ∀ k, IsReal (a k)) (k : Fin 2048) : IsReal (xln a k) := by
  choose A hA using ha
  obtain ⟨v, hv, hve⟩ := var_add_eps_real hA
  rw [xln, hve, rsqrt_of_pos hv, cen_real hA k]
  exact isReal_mul (isReal_coe _) (isReal_coe _)

/-- The running maximum from -∞ over a set of real values is -∞ or a real. -/
theorem fold_max_bot_or_isReal (f : Row) (hf : ∀ k, IsReal (f k)) (s : Finset (Fin 2048)) :
    s.fold max ⊥ f = ⊥ ∨ IsReal (s.fold max ⊥ f) := by
  induction s using Finset.induction_on with
  | empty => exact Or.inl Finset.fold_empty
  | insert k s hk ih =>
    right
    rw [Finset.fold_insert hk]
    rcases ih with h | h
    · rw [h, max_bot_right]; exact hf k
    · exact isReal_max (hf k) h

/-- The largest entry of a row of reals is a real: the index set is not empty, so the maximum is at least the
    first entry and cannot be -∞. -/
theorem rowMax_isReal (f : Row) (hf : ∀ k, IsReal (f k)) : IsReal (rowMax f) := by
  rw [rowMax, cNegInf_eq]
  rcases fold_max_bot_or_isReal f hf Finset.univ with h | h
  · exfalso
    have h0 : f 0 ≤ Finset.univ.fold max ⊥ f :=
      (Finset.le_fold_max (f 0)).mpr (Or.inr ⟨0, Finset.mem_univ _, le_rfl⟩)
    obtain ⟨r, hr⟩ := hf 0
    rw [h, hr] at h0
    exact EReal.coe_ne_bot r (le_bot_iff.mp h0)
  · exact h

/-- The scale of a real row is a positive real: it is at least the stabiliser. -/
theorem gama_real (ha : ∀ k, IsReal (a k)) : ∃ g : ℝ, 0 < g ∧ gama a = (g : EReal) := by
  obtain ⟨m, hm⟩ := rowMax_isReal (fun k => max (xln a k) (-(xln a k)))
    fun k => isReal_max (xln_isReal ha k) (isReal_neg (xln_isReal ha k))
  obtain ⟨e, he, heps⟩ := cEps_pos
  refine ⟨max m e, lt_max_of_lt_right he, ?_⟩
  rw [gama, hm, heps]
  exact (EReal.coe_strictMono.monotone.map_max (a := m) (b := e)).symm

theorem gamaR_eq_gama (ha : ∀ k, IsReal (a k)) : gamaR a = gama a := by
  rw [gamaR, gama, xlnR_eq_xln ha]

theorem zR_eq (ha : ∀ k, IsReal (a k)) (k : Fin 2048) : zR a k = xln a k * Ideal.div cSeven (gama a) := by
  rw [zR, gamaR_eq_gama ha, xlnR_eq_xln ha]

/-- The scaled entry is a real: a real times the real quotient 7 / scale. -/
theorem zR_isReal (ha : ∀ k, IsReal (a k)) (k : Fin 2048) : IsReal (zR a k) := by
  obtain ⟨g, hg, hgam⟩ := gama_real ha
  rw [zR_eq ha k, hgam, cSeven_eq, div_coe_coe _ hg.ne']
  exact isReal_mul (xln_isReal ha k) (isReal_coe _)

/-- The clip written as z + (clip z - z) is the clip. -/
theorem xqR_eq_xq (ha : ∀ k, IsReal (a k)) (k : Fin 2048) : xqR a k = xq a k := by
  rw [xqR, add_sub_cancel_of_isReal (zR_isReal ha k), zR_eq ha k, xq]

/-- The sign written as c + (sign c - c) is the sign. -/
theorem wbinR_eq_wbin (ha : ∀ k, IsReal (a k)) (k : Fin 2048) : wbinR a k = wbin a k := by
  rw [wbinR, add_sub_cancel_of_isReal (cen_isReal ha k), wbin]

end Normalised

/-! ### The two arrangements agree -/

/-- The quotient by 7 is the product with the real 1/7, at every extended real. -/
theorem div_cSeven (x : EReal) : Ideal.div x cSeven = x * ((1 / 7 : ℝ) : EReal) := by
  rw [cSeven_eq, Ideal.div_coe (by norm_num)]

theorem outR_eq_out (a w : Row) (b : EReal) (ha : ∀ k, ∃ r : ℝ, a k = (r : EReal))
    (hw : ∀ k, ∃ r : ℝ, w k = (r : EReal)) : outR a w b = out a w b := by
  have hsum : ∑ k, xqR a k * wbinR w k = ∑ k, xq a k * wbin w k :=
    Finset.sum_congr rfl fun k _ => by rw [xqR_eq_xq ha k, wbinR_eq_wbin hw k]
  rw [outR, out, outK, hsum, div_cSeven, gamaR_eq_gama ha]

end Cert.BitLinear

end
-- ==== Proof.Finite.lean ====
/-
  The printed precondition "every entry of the three inputs has absolute value below +∞", read back: each entry of
  each input is a real number.

  The predicate is the conjunction of three all-reductions by "and" of the entrywise comparison |v| < +∞. A
  conjunction of one-bit words is 1 only when both are, and a reduction by "and" over all axes that comes out 1 met
  a 1 at every index. At an entry the comparison says max v (-v) < ⊤ in the extended reals, which excludes v = ⊤
  (then the maximum is ⊤) and v = ⊥ (then -v = ⊤); what remains is a real number.
-/
import proofs.«137446_j77799037599823_2_alg».proof.Pre_finite_inputs
import Idealize.ShloMosaic.PureOps.Ideal.Laws
import Idealize.ShloMosaic.Lib.ReduceAll
import Idealize.ShloMosaic.Lib.ValueIdx

noncomputable section

namespace Cert.BitLinear.Finite

open Idealize.ShloMosaic Cert.Pre_finite_inputs

/-- The shape of rank 0 has one index. -/
instance subsingleton_S_Idx : Subsingleton S_.Idx := ⟨fun a b => funext fun d => d.elim0⟩

/-- The pattern with all exponent bits set, no fraction bit and sign bit clear denotes +∞. -/
theorem ofBits_inf : Ideal.ofBits .f32 0x7F800000#32 = ⊤ := by
  simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => simp at h
  | top => simp at h
  | coe r => exact ⟨r, rfl⟩

/-- The ordered "less than" comparison that comes out 1 is the strict order of the extended reals. -/
theorem lt_of_cmp_olt {a b : EReal} (h : Ideal.cmp .olt a b = 1#1) : a < b := by
  by_contra hn
  simp [Ideal.cmp, hn] at h

/-- The entrywise comparison |v| < +∞ coming out 1 at an index makes that entry a real number. -/
theorem real_of_entry {S : Shape} (v : FVec Ideal S .f32) (c : FVec Ideal S .f32)
    (hc : ∀ i, c i = Ideal.ofBits .f32 0x7F800000#32) (i : S.Idx)
    (h : cmpf .olt (Host.absf v) c i = 1#1) : ∃ r : ℝ, v i = (r : EReal) := by
  refine real_of_abs_lt_top (v i) ?_
  have h' : Ideal.cmp .olt (max (v i) (-(v i))) (c i) = 1#1 := h
  rw [hc i, ofBits_inf] at h'
  exact lt_of_cmp_olt h'

theorem real_of_finite [Facts] (x : FVec Ideal S8192x2048 .f32) (w : FVec Ideal S2048x2048 .f32)
    (b : FVec Ideal S2048 .f32) (h : fn (F := Ideal) x w b = (fun _ => 1#1)) :
    (∀ i, ∃ r : ℝ, x i = (r : EReal)) ∧ (∀ i, ∃ r : ℝ, w i = (r : EReal)) ∧ (∀ i, ∃ r : ℝ, b i = (r : EReal)) := by
  have h0 := congrFun h ValueIdx.ix0
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact real_of_entry x _ (fun _ => rfl) i (Host.reduce_andi_all _ _ _ _ _ h1 i)
  · exact real_of_entry w _ (fun _ => rfl) i (Host.reduce_andi_all _ _ _ _ _ h2 i)
  · exact real_of_entry b _ (fun _ => rfl) i (Host.reduce_andi_all _ _ _ _ _ h3 i)

end Cert.BitLinear.Finite

end
-- ==== Proof.lean ====
/-
  A linear layer with weights binarised to signs and activations quantised to fifteen levels, computed in two stages —
  the weight rows' signs and scales first, then layer normalisation, quantisation, the product with the signs, the
  rescaling and the bias in one pass over blocks of 256 activation rows — against the same layer written as whole-array
  operations. On the extended reals the two are one function of finite inputs: the two ways of normalising agree where
  the variance plus ε is a positive real, the straight-through forms `z + (clip z - z)` and `c + (sign c - c)` collapse
  where `z` and `c` are real, and dividing by 7 is multiplying by the named seventh.
-/
import proofs.«137446_j77799037599823_2_alg».proof.Defs
import proofs.«137446_j77799037599823_2_alg».proof.Proof.Gen.Kernel
import proofs.«137446_j77799037599823_2_alg».proof.Proof.Gen.Kernel.Skeleton
import proofs.«137446_j77799037599823_2_alg».proof.Proof.Gen.Kernel.Launch
import proofs.«137446_j77799037599823_2_alg».proof.Proof.Gen.Kernel.Points
import proofs.«137446_j77799037599823_2_alg».proof.Proof.Gen.Kernel.Frame
import proofs.«137446_j77799037599823_2_alg».proof.Proof.Gen.KernelIdeal
import proofs.«137446_j77799037599823_2_alg».proof.Proof.Gen.KernelIdeal.Skeleton
import proofs.«137446_j77799037599823_2_alg».proof.Proof.Gen.KernelIdeal.Launch
import proofs.«137446_j77799037599823_2_alg».proof.Proof.Gen.KernelIdeal.Points
import proofs.«137446_j77799037599823_2_alg».proof.Proof.Gen.KernelIdeal.Frame
import proofs.«137446_j77799037599823_2_alg».proof.Proof.Gen.ReferenceIdeal
import proofs.«137446_j77799037599823_2_alg».proof.Proof.Gen.ReferenceIdeal.Run
import proofs.«137446_j77799037599823_2_alg».proof.Proof.Gen.ReferenceIdeal.Read
import proofs.«137446_j77799037599823_2_alg».proof.Proof.Gen.Pre_finite_inputs
import proofs.«137446_j77799037599823_2_alg».proof.Proof.Result
import proofs.«137446_j77799037599823_2_alg».proof.Proof.RefStages
import proofs.«137446_j77799037599823_2_alg».proof.Proof.Law
import proofs.«137446_j77799037599823_2_alg».proof.Proof.Finite
import Idealize.ShloMosaic.Adequacy
import Idealize.ShloMosaic.Init

noncomputable section

namespace Cert.Proof

open Idealize.ShloMosaic Idealize.ShloMosaic.ValueIdx Idealize.SL.Sem Cert.BitLinear

/-- On arrays of real entries the two arrangements of the layer are one function. -/
theorem GR_eq_G (X : (⟨2, ![8192, 2048]⟩ : Shape).Idx → EReal) (W : (⟨2, ![2048, 2048]⟩ : Shape).Idx → EReal)
    (B : (⟨1, ![2048]⟩ : Shape).Idx → EReal) (hX : ∀ i, ∃ r : ℝ, X i = (r : EReal)) (hW : ∀ i, ∃ r : ℝ, W i = (r : EReal)) :
    GR X W B = G X W B := by
  funext i
  obtain ⟨p, q, rfl⟩ : ∃ (p : Fin 8192) (q : Fin 2048), i = ix2 p q := ⟨i 0, i 1, eq_ix2 i⟩
  rw [GR_apply, G_apply]
  exact outR_eq_out _ _ _ (fun k => hX (ix2 p k)) (fun k => hW (ix2 q k))

theorem frame_kernel [Cert.Kernel.Facts] [Cert.Pre_finite_inputs.Facts] : Cert.frame_Kernel :=
  fun m ρ _ => Cert.Kernel.Gen.frame m ρ

theorem frame_ideal [Cert.KernelIdeal.Facts] [Cert.Pre_finite_inputs.Facts] : Cert.frame_KernelIdeal :=
  fun m ρ _ => Cert.KernelIdeal.Gen.frame m ρ

theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The ideal pass's two rewrites: the sign read off the value instead of the sign bit, and the seventh named. -/
theorem preserves : Cert.preserves_Kernel_KernelIdeal :=
  ⟨IdealRules.sign_bit.statement Cert.KernelIdeal.S256x2048 .f32,
   IdealRules.named_const.statement Cert.KernelIdeal.κ "inv_7" .f32 0x3E124925#32 ((1 / 7 : ℝ) : EReal) rfl⟩

/-- From finite arguments both idealized programs end with the result at `G` of the arguments: the kernel's by its run
    read block by block, the reference's by its run read operation by operation and the law joining the arrangements. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨hX, hW, -⟩ := Cert.BitLinear.Finite.real_of_finite _ _ _ (hpre c)
  rw [(h c).1, Cert.ReferenceIdeal.Read.val_main_v53_eq, Cert.BitLinear.Ref.ref_eq_GR, (hagree c).1, (hagree c).2.1, (hagree c).2.2]
  exact GR_eq_G _ _ _ hX hW

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
